-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S64x32768 : Shape := ⟨2, ![64, 32768]⟩
abbrev S32768x64 : Shape := ⟨2, ![32768, 64]⟩
abbrev S1024x4096 : Shape := ⟨2, ![1024, 4096]⟩
abbrev S64x1024 : Shape := ⟨2, ![64, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x32768, .f32⟩
  | .hbm, ⟨3, _⟩ => ⟨S64x32768, .f32⟩
  | .hbm, ⟨4, _⟩ => ⟨S32768x64, .f32⟩
  | .hbm, ⟨5, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x32768_S32768x64_1_0 : S64x32768.Transposes [1, 0] S32768x64
  inb_S1024x4096_S1024x4096_0_0 : ∀ a, (![0, 0] : Fin 2 → Nat) a + S1024x4096.size a ≤ S1024x4096.size a
  h_S1024x4096 : 0 < S1024x4096.numel
  inb_S64x4096_S64x4096_0_0 : ∀ a, (![0, 0] : Fin 2 → Nat) a + S64x4096.size a ≤ S64x4096.size a
  h_S64x4096 : 0 < S64x4096.numel
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  dot_S64x4096_S1024x4096_S64x1024_1_1_0_0_n_n_wf : DotDims.WF S64x4096 S1024x4096 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x32768.size a
  hwx0_2 : ∀ i : grid0.Coords, EltTy.bits .f32 = 32 ∨ (Rect.block (s := S64x32768) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x32768.size a
  hwx0_3 : ∀ i : grid0.Coords, EltTy.bits .f32 = 32 ∨ (Rect.block (s := S64x32768) S64x1024.size (cc0_transform_3 i) (hinb0_3 i)).WholeWords (EltTy.packing .f32)

variable [Facts₀]

def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S_S32768x64 : S_.BroadcastsInDim S32768x64 (![] : Fin 0 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Softmax.lean ====
/-
  The mathematics both programs compute, stated once over the extended reals and with no program in sight.

  A token is a row of 4096 hidden values; the router weight is a 64 × 4096 table, one row per expert. The token's
  logit for expert e is the inner product of the token's row with expert e's row. The token's probabilities are the
  softmax of its 64 logits in the numerically guarded form: subtract the largest logit (the running maximum started
  from −∞), exponentiate, and divide by the sum of the 64 exponentials.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx

/-- The router weight: 64 experts by 4096 hidden coordinates. -/
abbrev Weights := (⟨2, ![64, 4096]⟩ : Shape).Idx → EReal

/-- The −∞ the running maximum starts from (the f32 pattern of negative infinity). -/
abbrev negInf : EReal := Ideal.ofBits .f32 0xFF800000#32

/-- The logit of expert `e` for a token with hidden row `row`: ∑ₖ W[e, k] · row[k]. -/
def logit (row : Fin 4096 → EReal) (w : Weights) (e : Fin 64) : EReal :=
  ∑ k : Fin 4096, w (ix2 e k) * row k

/-- The largest of the token's 64 logits, as a running maximum from −∞. -/
def rowMax (row : Fin 4096 → EReal) (w : Weights) : EReal :=
  (Finset.univ : Finset (Fin 64)).fold max negInf (fun e => logit row w e)

/-- exp (logit − largest logit). -/
def expo (row : Fin 4096 → EReal) (w : Weights) (e : Fin 64) : EReal :=
  Ideal.exp (logit row w e - rowMax row w)

/-- The sum of the 64 exponentials. -/
def expoSum (row : Fin 4096 → EReal) (w : Weights) : EReal :=
  ∑ e : Fin 64, expo row w e

/-- The softmax probability of expert `e`. -/
def prob (row : Fin 4096 → EReal) (w : Weights) (e : Fin 64) : EReal :=
  Ideal.div (expo row w e) (expoSum row w)

/-- Row `tk` of a 32768 × 4096 array of hidden states. -/
def tokenRow (x : (⟨2, ![32768, 4096]⟩ : Shape).Idx → EReal) (tk : Fin 32768) : Fin 4096 → EReal :=
  fun k => x (ix2 tk k)

/-- All logits, token-major: entry (tk, e). -/
def logits (x : (⟨2, ![32768, 4096]⟩ : Shape).Idx → EReal) (w : Weights) : (⟨2, ![32768, 64]⟩ : Shape).Idx → EReal :=
  fun i => logit (tokenRow x ⟨(i 0).val, (i 0).isLt⟩) w ⟨(i 1).val, (i 1).isLt⟩

/-- All probabilities, token-major: entry (tk, e). -/
def probs (x : (⟨2, ![32768, 4096]⟩ : Shape).Idx → EReal) (w : Weights) : (⟨2, ![32768, 64]⟩ : Shape).Idx → EReal :=
  fun i => prob (tokenRow x ⟨(i 0).val, (i 0).isLt⟩) w ⟨(i 1).val, (i 1).isLt⟩

/-- The same logits expert-major: entry (e, tk). -/
def logitsT (x : (⟨2, ![32768, 4096]⟩ : Shape).Idx → EReal) (w : Weights) : (⟨2, ![64, 32768]⟩ : Shape).Idx → EReal :=
  fun i => logit (tokenRow x ⟨(i 1).val, (i 1).isLt⟩) w ⟨(i 0).val, (i 0).isLt⟩

/-- The same probabilities expert-major: entry (e, tk). -/
def probsT (x : (⟨2, ![32768, 4096]⟩ : Shape).Idx → EReal) (w : Weights) : (⟨2, ![64, 32768]⟩ : Shape).Idx → EReal :=
  fun i => prob (tokenRow x ⟨(i 1).val, (i 1).isLt⟩) w ⟨(i 0).val, (i 0).isLt⟩

/-! ## The three float patterns the programs spell -/

/-- −∞ is the bottom of the order: a maximum against it is the other operand. -/
theorem negInf_max (y : EReal) : max negInf y = y := by
  show max (Ideal.ofBits .f32 0xFF800000#32) y = y
  simp [Ideal.ofBits, Ideal.ieee]

/-- The pattern of 1.0 is the real number one. -/
theorem one_bits : Ideal.ofBits .f32 0x3F800000#32 = ((1 : ℝ) : EReal) := by
  simp [Ideal.ofBits, Ideal.ieee, -EReal.coe_mul]
  norm_num

/-- Dividing by 1.0 changes nothing, at the infinities too. -/
theorem div_one_bits (y : EReal) : Ideal.div y (Ideal.ofBits .f32 0x3F800000#32) = y := by
  rw [one_bits, Ideal.div_coe one_ne_zero]
  simp

end Cert.Router

end
-- ==== Proof.RefValue.lean ====
/-
  The reference program's two results, read index by index, are the logits and the softmax probabilities of
  `Cert.Router`: the host's matrix product against the transposed weight is the inner product of a token's row with an
  expert's row; dividing by the temperature 1.0 changes nothing; the row maximum is the running maximum from −∞ (and a
  further maximum against −∞ is the identity); the host's exponential, sum from zero and quotient are the textbook ones.
-/
import proofs.«110685_g44117904065238_cont_8to1_c_823_21_alg».proof.Proof.Gen.ReferenceIdeal.Read
import proofs.«110685_g44117904065238_cont_8to1_c_823_21_alg».proof.Proof.Softmax

noncomputable section

namespace Cert.ReferenceIdeal.RefValue

open Cert.ReferenceIdeal Cert.ReferenceIdeal.Gen Cert.ReferenceIdeal.Read Idealize.ShloMosaic Idealize.ShloMosaic.ValueIdx Cert.Router

variable (x0 : (⟨S32768x4096, .f32⟩ : BufTy).Contents (Elt Ideal)) (x1 : (⟨S64x4096, .f32⟩ : BufTy).Contents (Elt Ideal))

/-- The quotient of the matrix product by 1.0, at token `tk` and expert `e`, is the logit. -/
theorem logit_at (tk : Fin 32768) (e : Fin 64) :
    val_main_v3 (F := Ideal) x0 x1 (ix2 tk e) = logit (tokenRow x0 tk) x1 e := by
  rw [val_main_v3_apply, val_main_v1_apply, val_main_v2_apply, val_main_cst_apply]
  simp only [Ideal.hostDivf_def, Ideal.ofBits_def, div_one_bits, val_main_v0_apply]
  unfold logit tokenRow
  refine Finset.sum_congr rfl fun k _ => ?_
  rw [mul_comm]
  have el : lidx_main_v1 (ix2 tk e) k = ix2 tk k := funext fun a => by
    match a with | ⟨0, _⟩ => rfl | ⟨1, _⟩ => rfl
  have er : idx_main_v0 (ridx_main_v1 (ix2 tk e) k) = ix2 e k := funext fun a => by
    match a with | ⟨0, _⟩ => rfl | ⟨1, _⟩ => rfl
  rw [el, er]

/-- A token's index with the expert coordinate put back on axis 1 is (tk, e). -/
theorem lift_expert (h : S32768x64.Reduces [1] S32768) (tk : Fin 32768) (k : Fin (S32768x64.size 1)) :
    h.lift (ix1 tk) k = ix2 tk (⟨k.val, k.isLt⟩ : Fin 64) := by
  funext c; apply Fin.ext
  fin_cases c <;> rfl

/-- The reduce with a maximum body from −∞ over the experts, then the maximum against −∞ once more, is the token's
    largest logit. -/
theorem rowMax_at (tk : Fin 32768) :
    val_main_v6 (F := Ideal) x0 x1 (ix1 tk) = rowMax (tokenRow x0 tk) x1 := by
  rw [val_main_v6_apply, val_main_v5_apply, val_main_cst_1_apply]
  simp only [Ideal.maximumf_def, Ideal.ofBits_def]
  rw [negInf_max]
  unfold val_main_v4
  have h : S32768x64.Reduces [1] S32768 := by decide
  rw [Host.reduce_eq_fold_single FloatOps.maximumf _ _ reducesTo_S32768x64_S32768_d1 h h_S_]
  have hf : (val_main_v3 (F := Ideal) x0 x1 ∘ h.lift (ix1 tk)) = fun e : Fin 64 => logit (tokenRow x0 tk) x1 e :=
    funext fun e => (congrArg (val_main_v3 (F := Ideal) x0 x1) (lift_expert h tk e)).trans (logit_at x0 x1 tk _)
  exact congrArg (fun f => Finset.fold max negInf f (Finset.univ : Finset (Fin 64))) hf

/-- The exponential of the logit less the row maximum. -/
theorem expo_at (tk : Fin 32768) (e : Fin 64) :
    val_main_v10 (F := Ideal) x0 x1 (ix2 tk e) = expo (tokenRow x0 tk) x1 e := by
  rw [val_main_v10_apply, val_main_v9_apply, val_main_v8_apply, val_main_v7_apply]
  have hi : idx_main_v7 (idx_main_v8 (ix2 tk e)) = ix1 tk := funext fun a => by
    match a with | ⟨0, _⟩ => rfl
  rw [hi, rowMax_at, logit_at]
  simp only [Ideal.hostUnary_exp_def, Ideal.subf_def]
  rfl

/-- The sum from zero of a token's 64 exponentials. -/
theorem expoSum_at (tk : Fin 32768) :
    val_main_v11 (F := Ideal) x0 x1 (ix1 tk) = expoSum (tokenRow x0 tk) x1 := by
  rw [val_main_v11_apply, val_main_cst_2_apply]
  simp only [Ideal.ofBits_def, Ideal.ofBits_zero_f32, zero_add]
  unfold expoSum
  refine Finset.sum_congr rfl fun k _ => ?_
  have hi : idx_main_v11 (ix1 tk) k = ix2 tk k := funext fun a => by
    match a with | ⟨0, _⟩ => rfl | ⟨1, _⟩ => rfl
  rw [hi, expo_at]

/-- The quotient of the exponential by the sum is the probability. -/
theorem prob_at (tk : Fin 32768) (e : Fin 64) :
    val_main_v14 (F := Ideal) x0 x1 (ix2 tk e) = prob (tokenRow x0 tk) x1 e := by
  rw [val_main_v14_apply, val_main_v13_apply, val_main_v12_apply]
  have hi : idx_main_v12 (idx_main_v13 (ix2 tk e)) = ix1 tk := funext fun a => by
    match a with | ⟨0, _⟩ => rfl
  rw [hi, expoSum_at, expo_at]
  simp only [Ideal.hostDivf_def]
  rfl

/-- Every index of a 32768 × 64 array is (token, expert). -/
theorem eq_tokenExpert (i : S32768x64.Idx) :
    i = ix2 (⟨(i 0).val, (i 0).isLt⟩ : Fin 32768) (⟨(i 1).val, (i 1).isLt⟩ : Fin 64) :=
  funext fun a => by match a with | ⟨0, _⟩ => rfl | ⟨1, _⟩ => rfl

/-- The reference's first result is the array of logits. -/
theorem logits_eq : val_main_v3 (F := Ideal) x0 x1 = logits x0 x1 :=
  funext fun i => (congrArg (val_main_v3 (F := Ideal) x0 x1) (eq_tokenExpert i)).trans (logit_at x0 x1 _ _)

/-- The reference's second result is the array of probabilities. -/
theorem probs_eq : val_main_v14 (F := Ideal) x0 x1 = probs x0 x1 :=
  funext fun i => (congrArg (val_main_v14 (F := Ideal) x0 x1) (eq_tokenExpert i)).trans (prob_at x0 x1 _ _)

end Cert.ReferenceIdeal.RefValue

end
-- ==== Proof.BlockValue.lean ====
/-
  What the kernel's body computes from one block of 1024 tokens and the whole weight table, read index by index.

  The body multiplies the weight table (64 × 4096) by the block (1024 × 4096) contracting the hidden axis of both, so
  entry (e, q) of the product is the inner product of expert e's row with token q's row: token q's logit for expert e.
  It then reduces each column by maximum from −∞, subtracts, exponentiates, sums each column from zero, and divides:
  entry (e, q) of the second result is token q's softmax probability for expert e. Both results are expert-major.
-/
import proofs.«110685_g44117904065238_cont_8to1_c_823_21_alg».proof.Proof.Gen.KernelIdeal.Skeleton
import proofs.«110685_g44117904065238_cont_8to1_c_823_21_alg».proof.Proof.Softmax
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.Router

/-- Token `q`'s hidden row inside a block of 1024 tokens. -/
def blockRow (x0 : Vec Ideal S1024x4096 .f32) (q : Fin 1024) : Fin 4096 → EReal := fun k => x0 (ix2 q k)

abbrev dotWX := dot_S64x4096_S1024x4096_S64x1024_1_1_0_0_n_n

/-- The left operand (the weights) is read at the output's expert coordinate … -/
theorem lhs_row (i : S64x1024.Idx) (c : dotWX.contr.Idx) : (dotWX.lhsIdx i c 0).val = (i 0).val := by
  unfold DotDims.lhsIdx
  rw [dif_neg (show ¬(0 : Fin S64x4096.rank) ∈ dotWX.lhsBatch by decide), dif_pos (show (0 : Fin S64x4096.rank) ∈ dotWX.lhsNonContracting by decide)]
  rfl
/-- … and at the contraction position on its hidden axis. -/
theorem lhs_hidden (i : S64x1024.Idx) (c : dotWX.contr.Idx) : (dotWX.lhsIdx i c 1).val = (c ⟨0, by decide⟩).val :=
  dotWX.lhsIdx_val_of_single rfl i c
/-- The right operand (the block of tokens) is read at the output's token coordinate … -/
theorem rhs_row (i : S64x1024.Idx) (c : dotWX.contr.Idx) : (dotWX.rhsIdx i c 0).val = (i 1).val := by
  unfold DotDims.rhsIdx
  rw [dif_neg (show ¬(0 : Fin S1024x4096.rank) ∈ dotWX.rhsBatch by decide), dif_pos (show (0 : Fin S1024x4096.rank) ∈ dotWX.rhsNonContracting by decide)]
  rfl
/-- … and at the contraction position on its hidden axis. -/
theorem rhs_hidden (i : S64x1024.Idx) (c : dotWX.contr.Idx) : (dotWX.rhsIdx i c 1).val = (c ⟨0, by decide⟩).val :=
  dotWX.rhsIdx_val_of_single rfl i c

/-- The product's left operand index at output (e, q) and contraction position k is (e, k). -/
theorem lhs_at (e : Fin 64) (q : Fin 1024) (k : Fin 4096) :
    dotWX.lhsIdx (ix2 e q) ((contrEquiv1 dotWX 4096 rfl rfl).symm k) = ix2 e k :=
  funext fun a => Fin.ext (by
    match a with
    | ⟨0, _⟩ => exact lhs_row _ _
    | ⟨1, _⟩ => exact (lhs_hidden _ _).trans (contrEquiv1_symm_val dotWX 4096 rfl rfl k))

/-- The product's right operand index there is (q, k). -/
theorem rhs_at (e : Fin 64) (q : Fin 1024) (k : Fin 4096) :
    dotWX.rhsIdx (ix2 e q) ((contrEquiv1 dotWX 4096 rfl rfl).symm k) = ix2 q k :=
  funext fun a => Fin.ext (by
    match a with
    | ⟨0, _⟩ => exact rhs_row _ _
    | ⟨1, _⟩ => exact (rhs_hidden _ _).trans (contrEquiv1_symm_val dotWX 4096 rfl rfl k))

/-- The matrix product into the zero accumulator, at (e, q), is token q's logit for expert e. -/
theorem logit_at (x0 : Vec Ideal S1024x4096 .f32) (x1 : Vec Ideal S64x4096 .f32) (e : Fin 64) (q : Fin 1024) :
    k0_pay1 (F := Ideal) x0 x1 (ix2 e q) = logit (blockRow x0 q) x1 e := by
  unfold k0_pay1
  refine (Ideal.matmul_constant_zero_apply dotWX none x1 x0 (ix2 e q)).trans ?_
  rw [← Equiv.sum_comp (contrEquiv1 dotWX 4096 rfl rfl).symm]
  unfold logit blockRow
  refine Finset.sum_congr rfl fun k _ => ?_
  rw [lhs_at, rhs_at]

/-! ## The column reductions and the keepdims broadcast, read at an index -/

/-- A column index with the expert coordinate put back on axis 0 is (e, q). -/
theorem lift_expert (h : S64x1024.Reduces [0] S1024) (q : Fin 1024) (k : Fin (S64x1024.size 0)) :
    h.lift (ix1 q) k = ix2 (⟨k.val, k.isLt⟩ : Fin 64) q := by
  funext c; apply Fin.ext
  fin_cases c <;> rfl

/-- The maximum-reduction over the expert axis from −∞, at column q: the running maximum of that column. -/
theorem colMax_at (y : FVec Ideal S64x1024 .f32) (q : Fin 1024) :
    multiReduction .maximumf [0] S1024 y 0xFF800000#32 Facts₀.reduces_S64x1024_S1024 (.inl rfl) rfl (ix1 q)
      = (Finset.univ : Finset (Fin 64)).fold max negInf (fun e => y (ix2 e q)) := by
  refine (Ideal.multiReduction_maximumf_single y 0xFF800000#32 Facts₀.reduces_S64x1024_S1024 (.inl rfl) rfl (ix1 q)).trans ?_
  have hf : (y ∘ Facts₀.reduces_S64x1024_S1024.lift (ix1 q)) = fun e : Fin 64 => y (ix2 e q) :=
    funext fun e => congrArg y (lift_expert _ q e)
  exact congrArg (fun f => Finset.fold max negInf f (Finset.univ : Finset (Fin 64))) hf

/-- The add-reduction over the expert axis from zero, at column q: the sum of that column. -/
theorem colSum_at (y : FVec Ideal S64x1024 .f32) (q : Fin 1024) :
    multiReduction .add [0] S1024 y 0x00000000#32 Facts₀.reduces_S64x1024_S1024 (.inl rfl) rfl (ix1 q)
      = ∑ e : Fin 64, y (ix2 e q) := by
  refine (Ideal.multiReduction_add_single y 0x00000000#32 Facts₀.reduces_S64x1024_S1024 (.inl rfl) rfl (ix1 q)).trans ?_
  exact Finset.sum_congr rfl fun e _ => congrArg y (lift_expert _ q e)

/-- A per-column value cast to one row and broadcast over the 64 experts reads, at (e, q), the value of column q. -/
theorem colBroadcast_at (z : FVec Ideal S1024 .f32) (e : Fin 64) (q : Fin 1024) :
    broadcastTo S64x1024 (shapeCast S1x1024 z Facts₀.shapeCasts_S1024_S1x1024) Facts₀.broadcasts_S1x1024_S64x1024 (ix2 e q) = z (ix1 q) :=
  (broadcastTo_1b_ab_apply _ Facts₀.broadcasts_S1x1024_S64x1024 e q).trans (shapeCast_a_1a_apply z Facts₀.shapeCasts_S1024_S1x1024 0 q)

/-- exp (y − a per-column value), at (e, q). -/
theorem expShift_at (y : FVec Ideal S64x1024 .f32) (z : FVec Ideal S1024 .f32) (e : Fin 64) (q : Fin 1024) :
    exp (subf y (broadcastTo S64x1024 (shapeCast S1x1024 z Facts₀.shapeCasts_S1024_S1x1024) Facts₀.broadcasts_S1x1024_S64x1024)) (ix2 e q)
      = Ideal.exp (y (ix2 e q) - z (ix1 q)) :=
  congrArg (fun v => Ideal.exp (y (ix2 e q) - v)) (colBroadcast_at z e q)

/-- u / a per-column value, at (e, q). -/
theorem quot_at (u : FVec Ideal S64x1024 .f32) (s : FVec Ideal S1024 .f32) (e : Fin 64) (q : Fin 1024) :
    divf u (broadcastTo S64x1024 (shapeCast S1x1024 s Facts₀.shapeCasts_S1024_S1x1024) Facts₀.broadcasts_S1x1024_S64x1024) (ix2 e q)
      = Ideal.div (u (ix2 e q)) (s (ix1 q)) :=
  congrArg (fun v => Ideal.div (u (ix2 e q)) v) (colBroadcast_at s e q)

/-! ## The softmax of a block of logits -/

/-- The exponentials of a block of logits, each column shifted by its maximum. -/
def expCols (y : FVec Ideal S64x1024 .f32) : FVec Ideal S64x1024 .f32 :=
  exp (subf y (broadcastTo S64x1024 (shapeCast S1x1024 (multiReduction .maximumf [0] S1024 y 0xFF800000#32 Facts₀.reduces_S64x1024_S1024 (.inl rfl) rfl) Facts₀.shapeCasts_S1024_S1x1024) Facts₀.broadcasts_S1x1024_S64x1024))

theorem expCols_at (y : FVec Ideal S64x1024 .f32) (e : Fin 64) (q : Fin 1024) :
    expCols y (ix2 e q) = Ideal.exp (y (ix2 e q) - (Finset.univ : Finset (Fin 64)).fold max negInf (fun e' => y (ix2 e' q))) :=
  (expShift_at y _ e q).trans (congrArg (fun v => Ideal.exp (y (ix2 e q) - v)) (colMax_at y q))

/-- The body's second stored value is the exponentials divided by their column sums. -/
theorem pay2_eq (x0 : Vec Ideal S1024x4096 .f32) (x1 : Vec Ideal S64x4096 .f32) :
    k0_pay2 (F := Ideal) x0 x1
      = divf (expCols (k0_pay1 (F := Ideal) x0 x1)) (broadcastTo S64x1024 (shapeCast S1x1024 (multiReduction .add [0] S1024 (expCols (k0_pay1 (F := Ideal) x0 x1)) 0x00000000#32 Facts₀.reduces_S64x1024_S1024 (.inl rfl) rfl) Facts₀.shapeCasts_S1024_S1x1024) Facts₀.broadcasts_S1x1024_S64x1024) := rfl

/-- The exponentials of the block's logits are those of the specification. -/
theorem expo_at (x0 : Vec Ideal S1024x4096 .f32) (x1 : Vec Ideal S64x4096 .f32) (e : Fin 64) (q : Fin 1024) :
    expCols (k0_pay1 (F := Ideal) x0 x1) (ix2 e q) = expo (blockRow x0 q) x1 e := by
  rw [expCols_at]
  simp only [logit_at]
  rfl

/-- The body's second stored value, at (e, q), is token q's softmax probability for expert e. -/
theorem prob_at (x0 : Vec Ideal S1024x4096 .f32) (x1 : Vec Ideal S64x4096 .f32) (e : Fin 64) (q : Fin 1024) :
    k0_pay2 (F := Ideal) x0 x1 (ix2 e q) = prob (blockRow x0 q) x1 e := by
  rw [pay2_eq]
  refine (quot_at _ _ e q).trans ?_
  rw [colSum_at]
  simp only [expo_at]
  rfl

end Cert.KernelIdeal.BlockValue

end
-- ==== Proof.ArrayValue.lean ====
/-
  From blocks to arrays. Grid point t of 32 stages tokens 1024·t … 1024·t + 1023 (rows of the hidden states) and the
  whole weight table, and writes back columns 1024·t … 1024·t + 1023 of the two expert-major results. So what point t
  writes back is block t of the expert-major logits and probabilities of the WHOLE arrays; the 32 column blocks cover
  every index, hence after the region the two staged results are those arrays, and the transposes that follow turn
  them token-major.
-/
import proofs.«110685_g44117904065238_cont_8to1_c_823_21_alg».proof.Proof.Gen.KernelIdeal.Frame
import proofs.«110685_g44117904065238_cont_8to1_c_823_21_alg».proof.Proof.BlockValue
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.Router Cert.KernelIdeal.BlockValue
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 32 grid points: the token block moves down the hidden states with the
    point, the weight table stays, and both result blocks move along the token axis with the point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 32 := by
  have h : t.val < grid0.N := t.isLt
  rw [N_0] at h
  exact h

/-- Token q of the block staged at point t is token 1024·t + q of the whole array. -/
def tokenOf (t : Fin cfg0.N) (q : Fin 1024) : Fin 32768 :=
  ⟨t.val * 1024 + q.val, by have := point_lt t; have := q.isLt; omega⟩

/-- The staged block of hidden states, read at (q, k), is the array at (1024·t + q, k). -/
theorem tokens_at (c : Dev nD) (t : Fin cfg0.N) (q : Fin 1024) (k : Fin 4096) :
    (iblk m c 0 t : Vec Ideal S1024x4096 .f32) (ix2 q k) = V m c main_arg0 (ix2 (tokenOf t q) k) := by
  obtain ⟨e0, e1, -⟩ := idx_facts t
  show V m c main_arg0 (((cfg0.win 0).blk t).view.emb (ix2 q k)) = V m c main_arg0 (ix2 (tokenOf t q) k)
  refine congrArg (V m c main_arg0) (funext fun a => Fin.ext ?_)
  match a with
  | ⟨0, _⟩ => show win0_0.index t (0 : Fin 2) * 1024 + 1 * q.val = t.val * 1024 + q.val; omega
  | ⟨1, _⟩ => show win0_0.index t (1 : Fin 2) * 4096 + 1 * k.val = k.val; omega

/-- The staged weight table is the whole weight table, at every point. -/
theorem weights_eq (c : Dev nD) (t : Fin cfg0.N) :
    (iblk m c 1 t : Vec Ideal S64x4096 .f32) = V m c main_arg1 := by
  obtain ⟨-, -, e2, e3, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 64 + 1 * (j 0).val = (j 0).val; omega
  | ⟨1, _⟩ => show win0_1.index t (1 : Fin 2) * 4096 + 1 * (j 1).val = (j 1).val; omega

/-- The array index of entry (e, q) of a result block written back at point t is (e, 1024·t + q) — the same for both
    result windows. -/
theorem logits_slot (t : Fin cfg0.N) (e : Fin 64) (q : Fin 1024) :
    ((cfg0.win 2).blk t).view.emb (ix2 e q) = ix2 e (tokenOf t q) := by
  obtain ⟨-, -, -, -, e4, e5, -⟩ := idx_facts t
  refine funext fun a => Fin.ext ?_
  match a with
  | ⟨0, _⟩ => show win0_2.index t (0 : Fin 2) * 64 + 1 * e.val = e.val; omega
  | ⟨1, _⟩ => show win0_2.index t (1 : Fin 2) * 1024 + 1 * q.val = t.val * 1024 + q.val; omega

theorem probs_slot (t : Fin cfg0.N) (e : Fin 64) (q : Fin 1024) :
    ((cfg0.win 3).blk t).view.emb (ix2 e q) = ix2 e (tokenOf t q) := by
  obtain ⟨-, -, -, -, -, -, e6, e7⟩ := idx_facts t
  refine funext fun a => Fin.ext ?_
  match a with
  | ⟨0, _⟩ => show win0_3.index t (0 : Fin 2) * 64 + 1 * e.val = e.val; omega
  | ⟨1, _⟩ => show win0_3.index t (1 : Fin 2) * 1024 + 1 * q.val = t.val * 1024 + q.val; omega

/-- Token q's row inside the block staged at point t is row 1024·t + q of the hidden states. -/
theorem blockRow_eq (c : Dev nD) (t : Fin cfg0.N) (q : Fin 1024) :
    blockRow (iblk m c 0 t) q = tokenRow (V m c main_arg0) (tokenOf t q) :=
  funext fun k => tokens_at m c t q k

/-- WHAT POINT t WRITES BACK to the first result is block t of the expert-major logits of the whole arrays. -/
theorem flushed_logits (c : Dev nD) (t : Fin cfg0.N) :
    (dats m 0 c).flushed 2 t = ((cfg0.win 2).blk t).view.read (Elt Ideal) (logitsT (V m c main_arg0) (V m c main_arg1)) := by
  show (cfg0.win 2).cut (grid0.coords t) ((dats m 0 c).after 2 t) = _
  rw [after0_2]
  unfold out0_2
  rw [View.canon_unit_zero origin]
  simp only [View.ld_unit_zero (S := S1024x4096) origin, View.ld_unit_zero (S := S64x4096) origin]
  funext j
  obtain ⟨e, q, rfl⟩ : ∃ (e : Fin 64) (q : Fin 1024), j = ix2 e q := ⟨j 0, j 1, eq_ix2 j⟩
  show k0_pay1 (F := Ideal) (iblk m c 0 t) (iblk m c 1 t) (ix2 e q)
    = logitsT (V m c main_arg0) (V m c main_arg1) (((cfg0.win 2).blk t).view.emb (ix2 e q))
  rw [logits_slot]
  refine (BlockValue.logit_at (iblk m c 0 t) (iblk m c 1 t) e q).trans ?_
  rw [blockRow_eq, weights_eq]
  rfl

/-- WHAT POINT t WRITES BACK to the second result is block t of the expert-major probabilities of the whole arrays. -/
theorem flushed_probs (c : Dev nD) (t : Fin cfg0.N) :
    (dats m 0 c).flushed 3 t = ((cfg0.win 3).blk t).view.read (Elt Ideal) (probsT (V m c main_arg0) (V m c main_arg1)) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S64x4096) origin]
  funext j
  obtain ⟨e, q, rfl⟩ : ∃ (e : Fin 64) (q : Fin 1024), j = ix2 e q := ⟨j 0, j 1, eq_ix2 j⟩
  show k0_pay2 (F := Ideal) (iblk m c 0 t) (iblk m c 1 t) (ix2 e q)
    = probsT (V m c main_arg0) (V m c main_arg1) (((cfg0.win 3).blk t).view.emb (ix2 e q))
  rw [probs_slot]
  refine (BlockValue.prob_at (iblk m c 0 t) (iblk m c 1 t) e q).trans ?_
  rw [blockRow_eq, weights_eq]
  rfl

/-! ## The 32 column blocks cover both results -/

/-- An index of the first result is in point t's block iff each coordinate is in the block's range on its axis. -/
theorem mem_logits_blk (t : Fin cfg0.N) (i : S64x32768.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_call0_v0_0).slice (win0_2.rect t)).set ↔ _
  rw [View.set_slice_whole, Rect.mem_set_unit]
  exact Iff.rfl

theorem mem_probs_blk (t : Fin cfg0.N) (i : S64x32768.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_call0_v0_1).slice (win0_3.rect t)).set ↔ _
  rw [View.set_slice_whole, Rect.mem_set_unit]
  exact Iff.rfl

/-- The point that stages token tk is tk / 1024. -/
def pointOf (i : S64x32768.Idx) : Fin cfg0.N :=
  ⟨(i 1).val / 1024, by
    have h : (i 1).val < 32768 := (i 1).isLt
    show (i 1).val / 1024 < grid0.N
    rw [N_0]; omega⟩

theorem cover_logits (i : S64x32768.Idx) :
    ∃ t : Fin cfg0.N, (cfg0.win 2).flush t = true ∧ i ∈ ((cfg0.win 2).blk t).view.set := by
  refine ⟨pointOf i, flush0_2 _, ?_⟩
  rw [mem_logits_blk]
  obtain ⟨-, -, -, -, e4, e5, -⟩ := idx_facts (pointOf i)
  have h0 : (i 0).val < 64 := (i 0).isLt
  have h1 : (i 1).val < 32768 := (i 1).isLt
  have hp : (pointOf i).val = (i 1).val / 1024 := rfl
  intro a
  match a with
  | ⟨0, _⟩ => show win0_2.index (pointOf i) (0 : Fin 2) * 64 ≤ (i 0).val ∧ (i 0).val < win0_2.index (pointOf i) (0 : Fin 2) * 64 + 64; omega
  | ⟨1, _⟩ => show win0_2.index (pointOf i) (1 : Fin 2) * 1024 ≤ (i 1).val ∧ (i 1).val < win0_2.index (pointOf i) (1 : Fin 2) * 1024 + 1024; omega

theorem cover_probs (i : S64x32768.Idx) :
    ∃ t : Fin cfg0.N, (cfg0.win 3).flush t = true ∧ i ∈ ((cfg0.win 3).blk t).view.set := by
  refine ⟨pointOf i, flush0_3 _, ?_⟩
  rw [mem_probs_blk]
  obtain ⟨-, -, -, -, -, -, e6, e7⟩ := idx_facts (pointOf i)
  have h0 : (i 0).val < 64 := (i 0).isLt
  have h1 : (i 1).val < 32768 := (i 1).isLt
  have hp : (pointOf i).val = (i 1).val / 1024 := rfl
  intro a
  match a with
  | ⟨0, _⟩ => show win0_3.index (pointOf i) (0 : Fin 2) * 64 ≤ (i 0).val ∧ (i 0).val < win0_3.index (pointOf i) (0 : Fin 2) * 64 + 64; omega
  | ⟨1, _⟩ => show win0_3.index (pointOf i) (1 : Fin 2) * 1024 ≤ (i 1).val ∧ (i 1).val < win0_3.index (pointOf i) (1 : Fin 2) * 1024 + 1024; omega

/-- After the region the first staged result is the expert-major logits of the argument arrays … -/
theorem final_logits (c : Dev nD) :
    (dats m 0 c).arrAt 2 cfg0.N = logitsT (m ((c : Thread nD τ).loc main_arg0)) (m ((c : Thread nD τ).loc main_arg1)) :=
  (dats m 0 c).arrAt_eq_of_cover 2 _ (fun t _ => flushed_logits m c t) cover_logits

/-- … and the second the expert-major probabilities. -/
theorem final_probs (c : Dev nD) :
    (dats m 0 c).arrAt 3 cfg0.N = probsT (m ((c : Thread nD τ).loc main_arg0)) (m ((c : Thread nD τ).loc main_arg1)) :=
  (dats m 0 c).arrAt_eq_of_cover 3 _ (fun t _ => flushed_probs m c t) cover_probs

end Cert.KernelIdeal.ArrayValue

end
-- ==== Proof.KernelRun.lean ====
/-
  The idealized kernel's run, read: after the region the two staged results hold the expert-major logits and
  probabilities; the two transposes that follow swap the axes, so the program's results are the token-major logits
  and probabilities of `Cert.Router`, and the argument arrays are as launched.
-/
import proofs.«110685_g44117904065238_cont_8to1_c_823_21_alg».proof.Proof.ArrayValue

noncomputable section

namespace Cert.KernelIdeal.KernelRun

open Cert.KernelIdeal Cert.KernelIdeal.Gen Idealize.ShloMosaic Idealize.ShloMosaic.TcCoe Idealize.SL.Sem
open Idealize.ShloMosaic.ValueIdx Cert.Router Cert.KernelIdeal.ArrayValue
open Idealize.ShloMosaic.Pipeline (Dat)

variable (m : (ℓ : Loc nD τ sig) → Buf (Elt Ideal) ℓ) (ρ : Dev nD → PrngReg)

/-- Every index of a 32768 × 64 array is (token, expert). -/
theorem eq_tokenExpert (i : S32768x64.Idx) :
    i = ix2 (⟨(i 0).val, (i 0).isLt⟩ : Fin 32768) (⟨(i 1).val, (i 1).isLt⟩ : Fin 64) :=
  funext fun a => by match a with | ⟨0, _⟩ => rfl | ⟨1, _⟩ => rfl

/-- Swapping the axes of the expert-major logits gives the token-major logits. -/
theorem transpose_logitsT (X : S32768x4096.Idx → EReal) (W : S64x4096.Idx → EReal) :
    transpose S32768x64 [1, 0] (logitsT X W) Facts₀.transposes_S64x32768_S32768x64_1_0 = logits X W :=
  funext fun i => (congrArg (transpose S32768x64 [1, 0] (logitsT X W) Facts₀.transposes_S64x32768_S32768x64_1_0) (eq_tokenExpert i)).trans
    (transpose_ix2_apply (logitsT X W) Facts₀.transposes_S64x32768_S32768x64_1_0 _ _)

/-- Swapping the axes of the expert-major probabilities gives the token-major probabilities. -/
theorem transpose_probsT (X : S32768x4096.Idx → EReal) (W : S64x4096.Idx → EReal) :
    transpose S32768x64 [1, 0] (probsT X W) Facts₀.transposes_S64x32768_S32768x64_1_0 = probs X W :=
  funext fun i => (congrArg (transpose S32768x64 [1, 0] (probsT X W) Facts₀.transposes_S64x32768_S32768x64_1_0) (eq_tokenExpert i)).trans
    (transpose_ix2_apply (probsT X W) Facts₀.transposes_S64x32768_S32768x64_1_0 _ _)

/-- The first line after the region leaves the transpose of the first staged result in the first result buffer. -/
theorem tail_logits (c : Dev nD) :
    Pipeline.afterTail₀ cfgs (dats m) 0 (V0 m) [hostOps1] c main_v0_0
      = transpose S32768x64 [1, 0] ((dats m 0 c).arrAt 2 cfg0.N) Facts₀.transposes_S64x32768_S32768x64_1_0 := by
  unfold Pipeline.afterTail₀
  show StableHlo.after hostOps1 _ (Proc.devRef .tc main_v0_0) = _
  after_results
  exact congrArg (fun x => transpose S32768x64 [1, 0] x Facts₀.transposes_S64x32768_S32768x64_1_0)
    (Pipeline.withArrays_arr spec0 launch0.win.arr_inj c (V0 m c) (fun w => (dats m 0 c).arrAt w cfg0.N) 2)

/-- The second line leaves the transpose of the second staged result in the second result buffer. -/
theorem tail_probs (c : Dev nD) :
    Pipeline.afterTail₀ cfgs (dats m) 0 (V0 m) [hostOps1] c main_v0_1
      = transpose S32768x64 [1, 0] ((dats m 0 c).arrAt 3 cfg0.N) Facts₀.transposes_S64x32768_S32768x64_1_0 := by
  unfold Pipeline.afterTail₀
  show StableHlo.after hostOps1 _ (Proc.devRef .tc main_v0_1) = _
  after_results
  exact congrArg (fun x => transpose S32768x64 [1, 0] x Facts₀.transposes_S64x32768_S32768x64_1_0)
    (Pipeline.withArrays_arr spec0 launch0.win.arr_inj c (V0 m c) (fun w => (dats m 0 c).arrAt w cfg0.N) 3)

/-- The two result buffers are no window's array. -/
theorem mem_rest_logits : main_v0_0 ∈ Pipeline.restRefs sig (cfgs 0).spec :=
  Pipeline.mem_restRefs_of main_v0_0 rfl (by decide)
theorem mem_rest_probs : main_v0_1 ∈ Pipeline.restRefs sig (cfgs 0).spec :=
  Pipeline.mem_restRefs_of main_v0_1 rfl (by decide)

/-- The run: every weakly fair execution terminates with the two results at the token-major logits and probabilities of
    the argument arrays, the arguments unchanged. -/
theorem run : θ_run defs (onTc (τ := τ) (main (F := Ideal))) ⟨m, fun _ => 0, ρ⟩ fun r => ∀ c : Dev nD,
      r.2.mem ((c.tc : Thread nD τ).loc main_v0_0) = logits (m ((c.tc : Thread nD τ).loc main_arg0)) (m ((c.tc : Thread nD τ).loc main_arg1))
      ∧ r.2.mem ((c.tc : Thread nD τ).loc main_v0_1) = probs (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0_0 mem_rest_logits).trans ((tail_logits m c).trans
        ((congrArg (fun x => transpose S32768x64 [1, 0] x Facts₀.transposes_S64x32768_S32768x64_1_0) (final_logits m c)).trans
          (transpose_logitsT _ _))),
      ((h c).2 main_v0_1 mem_rest_probs).trans ((tail_probs m c).trans
        ((congrArg (fun x => transpose S32768x64 [1, 0] x Facts₀.transposes_S64x32768_S32768x64_1_0) (final_probs m c)).trans
          (transpose_probsT _ _))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.lean ====
/-
  A mixture-of-experts router: for 32768 tokens with 4096 hidden values each and a 64 × 4096 weight table, the logits
  are hidden_states · Wᵀ and the probabilities the softmax of each token's 64 logits.

  The kernel walks the tokens in 32 blocks of 1024. For each block it multiplies the weight table by the block
  contracting the hidden axis, which gives the block's logits EXPERT-MAJOR (64 × 1024); takes each column's maximum,
  subtracts it, exponentiates, sums each column and divides; and writes both 64 × 1024 results as a column block of two
  64 × 32768 arrays, which are transposed to 32768 × 64 afterwards. The reference transposes the weight table, takes
  one 32768 × 64 matrix product, divides by the temperature 1.0, and applies the same guarded softmax along the expert
  axis.

  Over the extended reals both are one function of the two argument arrays (`Cert.Router.logits`, `Cert.Router.probs`):
  a product of two extended reals does not depend on the order of its factors, so W[e,k]·x[t,k] summed over k is the
  reference's x[t,k]·Wᵀ[k,e] summed over k; dividing by one is the identity; a maximum against −∞ is the identity; the
  kernel's and the host's maximum-, sum-reductions, exponential and quotient are the same exact operations; and
  tiling the token axis or storing a result transposed changes where an entry sits, not what it is. No step needs the
  inputs to be finite. The idealized kernel is the kernel's own text read over the extended reals (nothing was
  rewritten on the way), so the statement that it is the kernel's idealization is trivial.
-/
import proofs.«110685_g44117904065238_cont_8to1_c_823_21_alg».proof.Defs
import proofs.«110685_g44117904065238_cont_8to1_c_823_21_alg».proof.Proof.Gen.Kernel
import proofs.«110685_g44117904065238_cont_8to1_c_823_21_alg».proof.Proof.Gen.Kernel.Skeleton
import proofs.«110685_g44117904065238_cont_8to1_c_823_21_alg».proof.Proof.Gen.Kernel.Launch
import proofs.«110685_g44117904065238_cont_8to1_c_823_21_alg».proof.Proof.Gen.Kernel.Points
import proofs.«110685_g44117904065238_cont_8to1_c_823_21_alg».proof.Proof.Gen.Kernel.Frame
import proofs.«110685_g44117904065238_cont_8to1_c_823_21_alg».proof.Proof.Gen.KernelIdeal
import proofs.«110685_g44117904065238_cont_8to1_c_823_21_alg».proof.Proof.Gen.KernelIdeal.Skeleton
import proofs.«110685_g44117904065238_cont_8to1_c_823_21_alg».proof.Proof.Gen.KernelIdeal.Launch
import proofs.«110685_g44117904065238_cont_8to1_c_823_21_alg».proof.Proof.Gen.KernelIdeal.Points
import proofs.«110685_g44117904065238_cont_8to1_c_823_21_alg».proof.Proof.Gen.KernelIdeal.Frame
import proofs.«110685_g44117904065238_cont_8to1_c_823_21_alg».proof.Proof.Gen.ReferenceIdeal
import proofs.«110685_g44117904065238_cont_8to1_c_823_21_alg».proof.Proof.Gen.Pre_finite_inputs
import proofs.«110685_g44117904065238_cont_8to1_c_823_21_alg».proof.Proof.Gen.ReferenceIdeal.Run
import proofs.«110685_g44117904065238_cont_8to1_c_823_21_alg».proof.Proof.Gen.ReferenceIdeal.Read
import proofs.«110685_g44117904065238_cont_8to1_c_823_21_alg».proof.Proof.RefValue
import proofs.«110685_g44117904065238_cont_8to1_c_823_21_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its run, with the results forgotten, is its frame. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the hidden states and the weights, both programs end with the logits and the softmax
    probabilities of those arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v3_eq _ _).trans ((Cert.ReferenceIdeal.RefValue.logits_eq _ _).trans ?_))
    rw [(hagree c).1, (hagree c).2]
  · refine (h c).2.1.trans ((Cert.ReferenceIdeal.Read.val_main_v14_eq _ _).trans ((Cert.ReferenceIdeal.RefValue.probs_eq _ _).trans ?_))
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
